-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x9 : Shape := ⟨2, ![8388608, 9]⟩
abbrev S8388608 : Shape := ⟨1, ![8388608]⟩
abbrev S_ : Shape := ⟨0, ![]⟩

class Facts : Prop where
  bcast_S_S8388608x9 : S_.BroadcastsInDim S8388608x9 (![] : Fin 0 → Fin S8388608x9.rank)
  reducesTo_S8388608x9_S_d0_1 : S8388608x9.ReducesTo [0, 1] S_
  h_S_ : 0 < S_.numel

variable [Facts]

def fn {F : FTy → Type} [FloatOps F] (main_arg0 : FVec F S8388608x9 .f32) (main_arg1 : IVec S8388608 32) : IVec S_ 1 :=
  let main_v0 : FVec F S8388608x9 .f32 := Host.absf main_arg0
  let main_cst : FVec F S_ .f32 := constant S_ .f32 0x7F800000#32
  let main_v1 : FVec F S8388608x9 .f32 := broadcastInDim S8388608x9 ![] bcast_S_S8388608x9 main_cst
  let main_v2 : IVec S8388608x9 1 := cmpf .olt main_v0 main_v1
  let main_c : IVec S_ 1 := constantI S_ 1 1#1
  let main_v3 : IVec S_ 1 := (fun x v => Host.reduce IntOp.andi x v reducesTo_S8388608x9_S_d0_1 h_S_) main_v2 main_c
  main_v3
-- ==== Kernel.lean ====
abbrev S8388608x9 : Shape := ⟨2, ![8388608, 9]⟩
abbrev S8388608 : Shape := ⟨1, ![8388608]⟩
abbrev S_ : Shape := ⟨0, ![]⟩
abbrev S8388607 : Shape := ⟨1, ![8388607]⟩
abbrev S1 : Shape := ⟨1, ![1]⟩
abbrev S8388608x1 : Shape := ⟨2, ![8388608, 1]⟩
abbrev S1x9 : Shape := ⟨2, ![1, 9]⟩
abbrev S8192x9 : Shape := ⟨2, ![8192, 9]⟩
abbrev S8192x1 : Shape := ⟨2, ![8192, 1]⟩
abbrev S8192 : Shape := ⟨1, ![8192]⟩
abbrev S9 : Shape := ⟨1, ![9]⟩

abbrev nBuf : Space → Nat
  | .hbm => 58
  | .vmem => 8
  | .smem => 0
  | _ => 0

abbrev bufTy : (tb : Table) → Fin (tcTables nBuf tb) → BufTy
  | .hbm, ⟨0, _⟩ => ⟨S8388608x9, .f32⟩
  | .hbm, ⟨1, _⟩ => ⟨S8388608, .i32⟩
  | .hbm, ⟨2, _⟩ => ⟨S_, .f32⟩
  | .hbm, ⟨3, _⟩ => ⟨S8388608, .f32⟩
  | .hbm, ⟨4, _⟩ => ⟨S_, .i32⟩
  | .hbm, ⟨5, _⟩ => ⟨S8388608, .i32⟩
  | .hbm, ⟨6, _⟩ => ⟨S8388608, .i1⟩
  | .hbm, ⟨7, _⟩ => ⟨S_, .f32⟩
  | .hbm, ⟨8, _⟩ => ⟨S_, .f32⟩
  | .hbm, ⟨9, _⟩ => ⟨S8388608, .f32⟩
  | .hbm, ⟨10, _⟩ => ⟨S8388608, .f32⟩
  | .hbm, ⟨11, _⟩ => ⟨S8388607, .i32⟩
  | .hbm, ⟨12, _⟩ => ⟨S1, .i32⟩
  | .hbm, ⟨13, _⟩ => ⟨S8388608, .i32⟩
  | .hbm, ⟨14, _⟩ => ⟨S_, .i32⟩
  | .hbm, ⟨15, _⟩ => ⟨S8388608, .i32⟩
  | .hbm, ⟨16, _⟩ => ⟨S8388608, .i1⟩
  | .hbm, ⟨17, _⟩ => ⟨S_, .i32⟩
  | .hbm, ⟨18, _⟩ => ⟨S8388608, .i32⟩
  | .hbm, ⟨19, _⟩ => ⟨S8388608, .i1⟩
  | .hbm, ⟨20, _⟩ => ⟨S8388608, .i1⟩
  | .hbm, ⟨21, _⟩ => ⟨S_, .f32⟩
  | .hbm, ⟨22, _⟩ => ⟨S_, .f32⟩
  | .hbm, ⟨23, _⟩ => ⟨S8388608, .f32⟩
  | .hbm, ⟨24, _⟩ => ⟨S8388608, .f32⟩
  | .hbm, ⟨25, _⟩ => ⟨S8388607, .i32⟩
  | .hbm, ⟨26, _⟩ => ⟨S_, .i32⟩
  | .hbm, ⟨27, _⟩ => ⟨S1, .i32⟩
  | .hbm, ⟨28, _⟩ => ⟨S8388608, .i32⟩
  | .hbm, ⟨29, _⟩ => ⟨S_, .i32⟩
  | .hbm, ⟨30, _⟩ => ⟨S8388608, .i32⟩
  | .hbm, ⟨31, _⟩ => ⟨S8388608, .i1⟩
  | .hbm, ⟨32, _⟩ => ⟨S_, .f32⟩
  | .hbm, ⟨33, _⟩ => ⟨S_, .f32⟩
  | .hbm, ⟨34, _⟩ => ⟨S8388608, .f32⟩
  | .hbm, ⟨35, _⟩ => ⟨S8388608, .f32⟩
  | .hbm, ⟨36, _⟩ => ⟨S8388608x1, .i32⟩
  | .hbm, ⟨37, _⟩ => ⟨S8388608x1, .f32⟩
  | .hbm, ⟨38, _⟩ => ⟨S1x9, .f32⟩
  | .hbm, ⟨39, _⟩ => ⟨S1x9, .f32⟩
  | .hbm, ⟨40, _⟩ => ⟨S9, .f32⟩
  | .hbm, ⟨41, _⟩ => ⟨S9, .f32⟩
  | .hbm, ⟨42, _⟩ => ⟨S_, .f32⟩
  | .hbm, ⟨43, _⟩ => ⟨S9, .f32⟩
  | .hbm, ⟨44, _⟩ => ⟨S9, .f32⟩
  | .hbm, ⟨45, _⟩ => ⟨S_, .f32⟩
  | .hbm, ⟨46, _⟩ => ⟨S9, .f32⟩
  | .hbm, ⟨47, _⟩ => ⟨S9, .f32⟩
  | .hbm, ⟨48, _⟩ => ⟨S_, .f32⟩
  | .hbm, ⟨49, _⟩ => ⟨S9, .f32⟩
  | .hbm, ⟨50, _⟩ => ⟨S9, .f32⟩
  | .hbm, ⟨51, _⟩ => ⟨S9, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S8192x9, .f32⟩
  | .local _ .vmem, ⟨1, _⟩ => ⟨S8192x9, .f32⟩
  | .local _ .vmem, ⟨2, _⟩ => ⟨S8192x1, .i32⟩
  | .local _ .vmem, ⟨3, _⟩ => ⟨S8192x1, .i32⟩
  | .local _ .vmem, ⟨4, _⟩ => ⟨S8192x1, .f32⟩
  | .local _ .vmem, ⟨5, _⟩ => ⟨S8192x1, .f32⟩
  | .local _ .vmem, ⟨6, _⟩ => ⟨S1x9, .f32⟩
  | .local _ .vmem, ⟨7, _⟩ => ⟨S1x9, .f32⟩
  | _, _ => ⟨S8388608x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_call2_v0 : Ref sig .tc := ⟨.hbm, 33, rfl⟩
abbrev main_call2_v1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_10 : Ref sig .tc := ⟨.hbm, 52, rfl⟩
abbrev main_v31 : Ref sig .tc := ⟨.hbm, 53, rfl⟩
abbrev main_cst_11 : Ref sig .tc := ⟨.hbm, 54, rfl⟩
abbrev main_v32 : Ref sig .tc := ⟨.hbm, 55, rfl⟩
abbrev main_cst_12 : Ref sig .tc := ⟨.hbm, 56, rfl⟩
abbrev main_v33 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S8388608 : S_.BroadcastsInDim S8388608 (![] : Fin 0 → Fin S8388608.rank)
  slices_S8388608_S8388607_1 : S8388608.Slices ![1] S8388607
  slices_S8388608_S1_8388607 : S8388608.Slices ![8388607] S1
  concatenates_S8388607_S1_S8388608_d0 : Shape.Concatenates [S8388607, S1] S8388608 0
  bcast_S_S1 : S_.BroadcastsInDim S1 (![] : Fin 0 → Fin S1.rank)
  shapeCasts_S8388608_S8388608x1 : S8388608.ShapeCasts S8388608x1
  inb_S1x9_S1x9_0_0 : ∀ a, (![0, 0] : Fin 2 → Nat) a + S1x9.size a ≤ S1x9.size a
  h_S1x9 : 0 < S1x9.numel
  inb_S8192x9_S8192x9_0_0 : ∀ a, (![0, 0] : Fin 2 → Nat) a + S8192x9.size a ≤ S8192x9.size a
  h_S8192x9 : 0 < S8192x9.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  reduces_S8192x9_S8192 : S8192x9.Reduces [1] S8192
  shapeCasts_S8192_S8192x1 : S8192.ShapeCasts S8192x1
  broadcasts_S8192x1_S8192x9 : S8192x1.Broadcasts S8192x9
  iota_S8192x9_d1_w32 : S8192x9.Iotas .tc 32 [1]
  natLt_1_32 : 1 < 32
  reduces_S8192x9_S9 : S8192x9.Reduces [0] S9
  shapeCasts_S9_S1x9 : S9.ShapeCasts S1x9
  shapeCasts_S1x9_S1x9 : S1x9.ShapeCasts S1x9
  shapeCasts_S1x9_S9 : S1x9.ShapeCasts S9
  bcast_S_S9 : S_.BroadcastsInDim S9 (![] : Fin 0 → Fin S9.rank)
  reducesTo_S9_S_d0 : S9.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x9.size a ≤ S8388608x9.size a
  hwx0_0 : ∀ i : grid0.Coords, EltTy.bits .f32 = 32 ∨ (Rect.block (s := S8388608x9) S8192x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S8388608x1.size a
  hwx0_1 : ∀ i : grid0.Coords, EltTy.bits .i32 = 32 ∨ (Rect.block (s := S8388608x1) S8192x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S8388608x1.size a
  hwx0_2 : ∀ i : grid0.Coords, EltTy.bits .f32 = 32 ∨ (Rect.block (s := S8388608x1) S8192x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x9.size a ≤ S1x9.size a
  hwx0_3 : ∀ i : grid0.Coords, EltTy.bits .f32 = 32 ∨ (Rect.block (s := S1x9) S1x9.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x9.size a ≤ S1x9.size a
  hwx0_4 : ∀ i : grid0.Coords, EltTy.bits .f32 = 32 ∨ (Rect.block (s := S1x9) S1x9.size (cc0_transform_4 i) (hinb0_4 i)).WholeWords (EltTy.packing .f32)

variable [Facts₀]

abbrev win0_0 : Pipeline.Window sig grid0 :=
  Pipeline.Window.ofSpec (Memref.whole main_arg0) S8192x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S8192x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21_0) S1x9.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21_1) S1x9.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8388608x9 : Shape := ⟨2, ![8388608, 9]⟩
abbrev S8388608 : Shape := ⟨1, ![8388608]⟩
abbrev S_ : Shape := ⟨0, ![]⟩
abbrev S8388608x1 : Shape := ⟨2, ![8388608, 1]⟩
abbrev S1x9 : Shape := ⟨2, ![1, 9]⟩
abbrev S8388607 : Shape := ⟨1, ![8388607]⟩
abbrev S1 : Shape := ⟨1, ![1]⟩
abbrev S9 : Shape := ⟨1, ![9]⟩

abbrev nBuf : Space → Nat
  | .hbm => 87
  | .vmem => 0
  | .smem => 0
  | _ => 0

abbrev bufTy : (tb : Table) → Fin (tcTables nBuf tb) → BufTy
  | .hbm, ⟨0, _⟩ => ⟨S8388608x9, .f32⟩
  | .hbm, ⟨1, _⟩ => ⟨S8388608, .i32⟩
  | .hbm, ⟨2, _⟩ => ⟨S_, .f32⟩
  | .hbm, ⟨3, _⟩ => ⟨S8388608, .f32⟩
  | .hbm, ⟨4, _⟩ => ⟨S_, .f32⟩
  | .hbm, ⟨5, _⟩ => ⟨S8388608, .f32⟩
  | .hbm, ⟨6, _⟩ => ⟨S8388608, .f32⟩
  | .hbm, ⟨7, _⟩ => ⟨S8388608x1, .f32⟩
  | .hbm, ⟨8, _⟩ => ⟨S8388608x9, .f32⟩
  | .hbm, ⟨9, _⟩ => ⟨S8388608x9, .f32⟩
  | .hbm, ⟨10, _⟩ => ⟨S8388608x9, .f32⟩
  | .hbm, ⟨11, _⟩ => ⟨S_, .f32⟩
  | .hbm, ⟨12, _⟩ => ⟨S8388608, .f32⟩
  | .hbm, ⟨13, _⟩ => ⟨S8388608x1, .f32⟩
  | .hbm, ⟨14, _⟩ => ⟨S8388608x9, .f32⟩
  | .hbm, ⟨15, _⟩ => ⟨S8388608x9, .f32⟩
  | .hbm, ⟨16, _⟩ => ⟨S8388608x1, .i32⟩
  | .hbm, ⟨17, _⟩ => ⟨S1x9, .i32⟩
  | .hbm, ⟨18, _⟩ => ⟨S8388608x9, .i32⟩
  | .hbm, ⟨19, _⟩ => ⟨S8388608x9, .i32⟩
  | .hbm, ⟨20, _⟩ => ⟨S8388608x9, .i1⟩
  | .hbm, ⟨21, _⟩ => ⟨S8388608x9, .f32⟩
  | .hbm, ⟨22, _⟩ => ⟨S_, .f32⟩
  | .hbm, ⟨23, _⟩ => ⟨S8388608, .f32⟩
  | .hbm, ⟨24, _⟩ => ⟨S_, .i32⟩
  | .hbm, ⟨25, _⟩ => ⟨S8388608, .i32⟩
  | .hbm, ⟨26, _⟩ => ⟨S8388608, .i1⟩
  | .hbm, ⟨27, _⟩ => ⟨S_, .f32⟩
  | .hbm, ⟨28, _⟩ => ⟨S_, .f32⟩
  | .hbm, ⟨29, _⟩ => ⟨S8388608, .f32⟩
  | .hbm, ⟨30, _⟩ => ⟨S8388608, .f32⟩
  | .hbm, ⟨31, _⟩ => ⟨S8388607, .i32⟩
  | .hbm, ⟨32, _⟩ => ⟨S1, .i32⟩
  | .hbm, ⟨33, _⟩ => ⟨S8388608, .i32⟩
  | .hbm, ⟨34, _⟩ => ⟨S_, .i32⟩
  | .hbm, ⟨35, _⟩ => ⟨S8388608, .i32⟩
  | .hbm, ⟨36, _⟩ => ⟨S8388608, .i1⟩
  | .hbm, ⟨37, _⟩ => ⟨S_, .i32⟩
  | .hbm, ⟨38, _⟩ => ⟨S8388608, .i32⟩
  | .hbm, ⟨39, _⟩ => ⟨S8388608, .i1⟩
  | .hbm, ⟨40, _⟩ => ⟨S8388608, .i1⟩
  | .hbm, ⟨41, _⟩ => ⟨S_, .f32⟩
  | .hbm, ⟨42, _⟩ => ⟨S_, .f32⟩
  | .hbm, ⟨43, _⟩ => ⟨S8388608, .f32⟩
  | .hbm, ⟨44, _⟩ => ⟨S8388608, .f32⟩
  | .hbm, ⟨45, _⟩ => ⟨S8388607, .i32⟩
  | .hbm, ⟨46, _⟩ => ⟨S_, .i32⟩
  | .hbm, ⟨47, _⟩ => ⟨S1, .i32⟩
  | .hbm, ⟨48, _⟩ => ⟨S8388608, .i32⟩
  | .hbm, ⟨49, _⟩ => ⟨S_, .i32⟩
  | .hbm, ⟨50, _⟩ => ⟨S8388608, .i32⟩
  | .hbm, ⟨51, _⟩ => ⟨S8388608, .i1⟩
  | .hbm, ⟨52, _⟩ => ⟨S_, .f32⟩
  | .hbm, ⟨53, _⟩ => ⟨S_, .f32⟩
  | .hbm, ⟨54, _⟩ => ⟨S8388608, .f32⟩
  | .hbm, ⟨55, _⟩ => ⟨S8388608, .f32⟩
  | .hbm, ⟨56, _⟩ => ⟨S8388608x1, .f32⟩
  | .hbm, ⟨57, _⟩ => ⟨S8388608x9, .f32⟩
  | .hbm, ⟨58, _⟩ => ⟨S8388608x9, .f32⟩
  | .hbm, ⟨59, _⟩ => ⟨S8388608x9, .f32⟩
  | .hbm, ⟨60, _⟩ => ⟨S_, .f32⟩
  | .hbm, ⟨61, _⟩ => ⟨S9, .f32⟩
  | .hbm, ⟨62, _⟩ => ⟨S8388608x9, .f32⟩
  | .hbm, ⟨63, _⟩ => ⟨S8388608x9, .f32⟩
  | .hbm, ⟨64, _⟩ => ⟨S_, .f32⟩
  | .hbm, ⟨65, _⟩ => ⟨S9, .f32⟩
  | .hbm, ⟨66, _⟩ => ⟨S8388608x9, .f32⟩
  | .hbm, ⟨67, _⟩ => ⟨S8388608x9, .f32⟩
  | .hbm, ⟨68, _⟩ => ⟨S_, .f32⟩
  | .hbm, ⟨69, _⟩ => ⟨S9, .f32⟩
  | .hbm, ⟨70, _⟩ => ⟨S9, .f32⟩
  | .hbm, ⟨71, _⟩ => ⟨S_, .f32⟩
  | .hbm, ⟨72, _⟩ => ⟨S9, .f32⟩
  | .hbm, ⟨73, _⟩ => ⟨S9, .f32⟩
  | .hbm, ⟨74, _⟩ => ⟨S_, .f32⟩
  | .hbm, ⟨75, _⟩ => ⟨S9, .f32⟩
  | .hbm, ⟨76, _⟩ => ⟨S9, .f32⟩
  | .hbm, ⟨77, _⟩ => ⟨S_, .f32⟩
  | .hbm, ⟨78, _⟩ => ⟨S9, .f32⟩
  | .hbm, ⟨79, _⟩ => ⟨S9, .f32⟩
  | .hbm, ⟨80, _⟩ => ⟨S9, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S8388608x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_call2_v0 : Ref sig .tc := ⟨.hbm, 42, rfl⟩
abbrev main_call2_v1 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_call3_v0 : Ref sig .tc := ⟨.hbm, 53, rfl⟩
abbrev main_call3_v1 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_12 : Ref sig .tc := ⟨.hbm, 68, rfl⟩
abbrev main_v41 : Ref sig .tc := ⟨.hbm, 69, rfl⟩
abbrev main_v42 : Ref sig .tc := ⟨.hbm, 70, rfl⟩
abbrev main_cst_13 : Ref sig .tc := ⟨.hbm, 71, rfl⟩
abbrev main_v43 : Ref sig .tc := ⟨.hbm, 72, rfl⟩
abbrev main_v44 : Ref sig .tc := ⟨.hbm, 73, rfl⟩
abbrev main_cst_14 : Ref sig .tc := ⟨.hbm, 74, rfl⟩
abbrev main_v45 : Ref sig .tc := ⟨.hbm, 75, rfl⟩
abbrev main_v46 : Ref sig .tc := ⟨.hbm, 76, rfl⟩
abbrev main_cst_15 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_16 : Ref sig .tc := ⟨.hbm, 81, rfl⟩
abbrev main_v50 : Ref sig .tc := ⟨.hbm, 82, rfl⟩
abbrev main_cst_17 : Ref sig .tc := ⟨.hbm, 83, rfl⟩
abbrev main_v51 : Ref sig .tc := ⟨.hbm, 84, rfl⟩
abbrev main_cst_18 : Ref sig .tc := ⟨.hbm, 85, rfl⟩
abbrev main_v52 : Ref sig .tc := ⟨.hbm, 86, rfl⟩

abbrev nD : Nat := 1
abbrev τ : Topo := Topo.v7x

variable {F : FTy → Type} [FloatOps F]

class Facts₀ : Prop where
  reducesTo_S8388608x9_S8388608_d1 : S8388608x9.ReducesTo [1] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x9_0_1 : S8388608x1.BroadcastsInDim S8388608x9 (![0, 1] : Fin 2 → Fin S8388608x9.rank)
  bcast_S1x9_S8388608x9_0_1 : S1x9.BroadcastsInDim S8388608x9 (![0, 1] : Fin 2 → Fin S8388608x9.rank)
  slices_S8388608_S8388607_1 : S8388608.Slices ![1] S8388607
  slices_S8388608_S1_8388607 : S8388608.Slices ![8388607] S1
  concatenates_S8388607_S1_S8388608_d0 : Shape.Concatenates [S8388607, S1] S8388608 0
  bcast_S_S1 : S_.BroadcastsInDim S1 (![] : Fin 0 → Fin S1.rank)
  reducesTo_S8388608x9_S9_d0 : S8388608x9.ReducesTo [0] S9
  bcast_S_S9 : S_.BroadcastsInDim S9 (![] : Fin 0 → Fin S9.rank)
  reducesTo_S9_S_d0 : S9.ReducesTo [0] S_

variable [Facts₀]

class Facts : Prop extends Facts₀ where

variable [Facts]
-- ==== Proof.Pieces.lean ====
/-
  What one grid point leaves in the two accumulators' buffers, as values of the blocks it loads.

  At the first point the body stores zero into each accumulator, reads it back, and stores the read-back plus the
  block's contribution; at every later point it reads what the point before left and stores that plus the block's
  contribution. Each accumulator's last store covers the whole [1, 9] buffer, so what the buffer ends holding is that
  store's value, and every load reads a whole buffer's contents.
-/
import proofs.«106723_j1030792151082_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First point, numerator accumulator: zero, then zero plus the block's contribution. -/
theorem first_numer (c : Dev nD) (i : grid0.Coords) (a1 : Memref sig .tc .vmem S8192x9 .f32) (h1 : a1.IsWhole) (a2 : Memref sig .tc .vmem S8192x1 .i32) (h2 : a2.IsWhole) (a3 : Memref sig .tc .vmem S8192x1 .f32) (h3 : a3.IsWhole) (a4 : Memref sig .tc .vmem S1x9 .f32) (h4 : a4.IsWhole) (a5 : Memref sig .tc .vmem S1x9 .f32) (h5 : a5.IsWhole) (hc : cond0_0 i)
    (x : Vec F S8192x9 .f32) (t : Vec F S8192x1 .i32) (w : Vec F S8192x1 .f32) :
    out0_A_3 c i a1 h1 a2 h2 a3 h3 a4 h4 a5 h5 hc x t w = k0_pay8 x t w (k0_pay2 (F := F)) := by
  unfold out0_A_3
  rw [View.read_writes_eq_canon _ _ _ (cover0_A_3 c i a1 h1 a2 h2 a3 h3 a4 h4 a5 h5 hc x t w)]
  unfold kernelRun0_A
  dsimp only
  sl_unfold_words
  rw [View.canon_cons_unit_zero (S := S1x9) hz, View.readCov_unit_zero (S := S1x9) _ hz]
  simp only [View.readAt_eq_ld, h1.read_unread, h2.read_unread, h3.read_unread, View.ld_unit_zero (S := S8192x9) hz,
    View.ld_unit_zero (S := S8192x1) hz]

/-- First point, denominator accumulator. -/
theorem first_denom (c : Dev nD) (i : grid0.Coords) (a1 : Memref sig .tc .vmem S8192x9 .f32) (h1 : a1.IsWhole) (a2 : Memref sig .tc .vmem S8192x1 .i32) (h2 : a2.IsWhole) (a3 : Memref sig .tc .vmem S8192x1 .f32) (h3 : a3.IsWhole) (a4 : Memref sig .tc .vmem S1x9 .f32) (h4 : a4.IsWhole) (a5 : Memref sig .tc .vmem S1x9 .f32) (h5 : a5.IsWhole) (hc : cond0_0 i)
    (x : Vec F S8192x9 .f32) (t : Vec F S8192x1 .i32) (w : Vec F S8192x1 .f32) :
    out0_A_4 c i a1 h1 a2 h2 a3 h3 a4 h4 a5 h5 hc x t w = k0_pay1 (k0_pay7 x t w) (k0_pay3 (F := F)) := by
  unfold out0_A_4
  rw [View.read_writes_eq_canon _ _ _ (cover0_A_4 c i a1 h1 a2 h2 a3 h3 a4 h4 a5 h5 hc x t w)]
  unfold kernelRun0_A
  dsimp only
  sl_unfold_words
  rw [View.canon_cons_unit_zero (S := S1x9) hz, View.readCov_unit_zero (S := S1x9) _ hz]
  simp only [View.readAt_eq_ld, h1.read_unread, h2.read_unread, h3.read_unread, View.ld_unit_zero (S := S8192x9) hz,
    View.ld_unit_zero (S := S8192x1) hz]

/-- A later point, numerator accumulator: what it held (`n`) plus the block's contribution. -/
theorem later_numer (c : Dev nD) (i : grid0.Coords) (a1 : Memref sig .tc .vmem S8192x9 .f32) (h1 : a1.IsWhole) (a2 : Memref sig .tc .vmem S8192x1 .i32) (h2 : a2.IsWhole) (a3 : Memref sig .tc .vmem S8192x1 .f32) (h3 : a3.IsWhole) (a4 : Memref sig .tc .vmem S1x9 .f32) (h4 : a4.IsWhole) (a5 : Memref sig .tc .vmem S1x9 .f32) (h5 : a5.IsWhole) (hc : ¬cond0_0 i)
    (x : Vec F S8192x9 .f32) (t : Vec F S8192x1 .i32) (w : Vec F S8192x1 .f32) (n d : Vec F S1x9 .f32) :
    out0_B_3 c i a1 h1 a2 h2 a3 h3 a4 h4 a5 h5 hc x t w n d = k0_pay8 x t w n := by
  unfold out0_B_3
  rw [View.read_writes_eq_canon _ _ _ (cover0_B_3 c i a1 h1 a2 h2 a3 h3 a4 h4 a5 h5 hc x t w n d)]
  unfold kernelRun0_B
  dsimp only
  sl_unfold_words
  rw [View.canon_unit_zero (S := S1x9) hz]
  simp only [View.readAt_eq_ld, h1.read_unread, h2.read_unread, h3.read_unread, h4.read_unread, View.ld_unit_zero (S := S8192x9) hz,
    View.ld_unit_zero (S := S8192x1) hz, View.ld_unit_zero (S := S1x9) hz]

/-- A later point, denominator accumulator: what it held (`d`) plus the block's contribution. -/
theorem later_denom (c : Dev nD) (i : grid0.Coords) (a1 : Memref sig .tc .vmem S8192x9 .f32) (h1 : a1.IsWhole) (a2 : Memref sig .tc .vmem S8192x1 .i32) (h2 : a2.IsWhole) (a3 : Memref sig .tc .vmem S8192x1 .f32) (h3 : a3.IsWhole) (a4 : Memref sig .tc .vmem S1x9 .f32) (h4 : a4.IsWhole) (a5 : Memref sig .tc .vmem S1x9 .f32) (h5 : a5.IsWhole) (hc : ¬cond0_0 i)
    (x : Vec F S8192x9 .f32) (t : Vec F S8192x1 .i32) (w : Vec F S8192x1 .f32) (n d : Vec F S1x9 .f32) :
    out0_B_4 c i a1 h1 a2 h2 a3 h3 a4 h4 a5 h5 hc x t w n d = k0_pay1 (k0_pay7 x t w) d := by
  unfold out0_B_4
  rw [View.read_writes_eq_canon _ _ _ (cover0_B_4 c i a1 h1 a2 h2 a3 h3 a4 h4 a5 h5 hc x t w n d)]
  unfold kernelRun0_B
  dsimp only
  sl_unfold_words
  rw [View.canon_unit_zero (S := S1x9) hz]
  simp only [View.readAt_eq_ld, h1.read_unread, h2.read_unread, h3.read_unread, h5.read_unread, View.ld_unit_zero (S := S8192x9) hz,
    View.ld_unit_zero (S := S8192x1) hz, View.ld_unit_zero (S := S1x9) hz]

end Cert.KernelIdeal.Pieces

end
-- ==== Proof.Spec.lean ====
/-
  The mathematics both programs compute, stated once over the extended reals.

  For logits x : [N, 9] (N = 8388608 rows), integer labels t : [N] and per-row weights w : [N]:
    p[i, c]  = exp (x[i, c] − μᵢ) / ∑ₖ exp (x[i, k] − μᵢ),   μᵢ = max (−∞, maxₖ x[i, k])      (a row's softmax)
    oh[i, c] = 1 if t[i] = c, else 0                                                         (a row's one-hot)
    numer[c] = ∑ᵢ oh[i, c] · (p[i, c] · w[i])
    denom[c] = ∑ᵢ p[i, c] · w[i]  +  ∑ᵢ oh[i, c] · w[i].
  One program takes each sum over all N rows at once; the other takes it 8192 rows at a time and adds the 1024
  partial sums in order, starting from zero. Addition of extended reals is commutative and associative, so the two
  agree (`sum_rows`, `sum_range_blockSum`): no finiteness is needed.
-/
import Idealize.ShloMosaic.PureOps.Ideal
import Idealize.ShloMosaic.PureOps.Ideal.Laws
import Idealize.ShloMosaic.Lib.ValueIdx

noncomputable section

namespace Cert.Dice

open Idealize.ShloMosaic

/-- −∞ as both programs spell it: the value a row maximum starts from. -/
abbrev negInf : EReal := Ideal.ofBits .f32 0xFF800000#32

/-- A row's maximum, taken from −∞ and then once more against −∞ (both programs do both). -/
def rowMax (xr : Fin 9 → EReal) : EReal := max negInf ((Finset.univ : Finset (Fin 9)).fold max negInf xr)

/-- A row's softmax at class `c`. -/
def rowSoftmax (xr : Fin 9 → EReal) (c : Fin 9) : EReal :=
  Ideal.div (Ideal.exp (xr c - rowMax xr)) (∑ k : Fin 9, Ideal.exp (xr k - rowMax xr))

/-- A label's one-hot at class `c`: the comparison's bit, widened to a word and read as a signed integer. -/
def oneHot (t : BitVec 32) (c : Fin 9) : EReal :=
  ((((IntOp.cmpi .eq (BitVec.ofNat 32 c.val) t).setWidth 32).toInt : ℝ) : EReal)

/-- The comparison taken the other way round and its bit read as an unsigned integer is the same number. -/
theorem oneHot_swap (t : BitVec 32) (c : Fin 9) :
    (((IntOp.cmpi .eq t (BitVec.ofNat 32 c.val)).toNat : ℝ) : EReal) = oneHot t c := by
  unfold oneHot IntOp.cmpi
  dsimp only
  by_cases h : t = BitVec.ofNat 32 c.val
  · subst h; simp
  · have h1 : (t == BitVec.ofNat 32 c.val) = false := by simpa using h
    have h2 : (BitVec.ofNat 32 c.val == t) = false := by simpa using fun e => h e.symm
    rw [h1, h2]; simp

/-- Row `r` of row block `b`: row `8192·b + r` of the array. -/
def rowOf (b : Fin 1024) (r : Fin 8192) : Fin 8388608 := ⟨b.val * 8192 + r.val, by omega⟩

/-- A sum over all rows is the sum over the 1024 row blocks of the sums over each block's 8192 rows. -/
theorem sum_rows {M : Type*} [AddCommMonoid M] (f : Fin 8388608 → M) :
    ∑ i, f i = ∑ b : Fin 1024, ∑ r : Fin 8192, f (rowOf b r) := by
  rw [← Fintype.sum_prod_type' (f := fun b r => f (rowOf b r))]
  refine (Fintype.sum_equiv (finProdFinEquiv : Fin 1024 × Fin 8192 ≃ Fin (1024 * 8192)) _ _ fun p => ?_).symm
  refine congrArg f (Fin.ext ?_)
  show p.1.val * 8192 + p.2.val = p.2.val + 8192 * p.1.val
  omega

/-- Block `b`'s partial sum, for any natural `b` (zero past the last block, so that a running sum needs no bound). -/
def blockSum (f : Fin 8388608 → EReal) (b : ℕ) : EReal :=
  if h : b < 1024 then ∑ r : Fin 8192, f (rowOf ⟨b, h⟩ r) else 0

theorem blockSum_of_lt (f : Fin 8388608 → EReal) (b : Fin 1024) :
    blockSum f b.val = ∑ r : Fin 8192, f (rowOf b r) := dif_pos b.isLt

/-- The 1024 partial sums add up to the whole sum. -/
theorem sum_range_blockSum (f : Fin 8388608 → EReal) :
    ∑ b ∈ Finset.range 1024, blockSum f b = ∑ i, f i := by
  rw [Finset.sum_range, sum_rows]
  exact Finset.sum_congr rfl fun b _ => blockSum_of_lt f b

end Cert.Dice

end
-- ==== Proof.Layout.lean ====
/-
  Layout operations and reductions of a two-axis array read at an index given by its coordinates.

  A column kept as an [a, 1] array: casting [a] to [a, 1] reads row `i` at (i, 0), and broadcasting [a, 1] along the
  second axis to [a, b] reads (i, c) at (i, 0). Reducing an [a, b] array along one axis reads, at the other axis's
  coordinate, the sum (or the maximum taken from the starting value) over the reduced axis's coordinates.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.Dice

open Idealize.ShloMosaic Idealize.ShloMosaic.ValueIdx

section Columns
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## Reductions along one axis of an [a, b] array -/

/-- Over the result index `r` of a reduction along axis 1, the source index with coordinate `k` on that axis is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- Over the result index `c` of a reduction along axis 0, the source index with coordinate `r` on that axis is `(r, c)`. -/
theorem lift_axis0 {a b : ℕ} (h : (⟨2, ![a, b]⟩ : Shape).Reduces [0] ⟨1, ![b]⟩) (c : Fin b) (r : Fin a) :
    h.lift (ix1 c) r = ix2 r c := by
  funext d
  apply Fin.ext
  match d with
  | ⟨0, _⟩ => rfl
  | ⟨1, _⟩ => rfl

/-- A sum along axis 1 (a row's sum), at row `r`. -/
theorem sum_axis1 {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_axis1 h r k))

/-- A sum along axis 0 (a column's sum), at column `c`. -/
theorem sum_axis0 {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (lift_axis0 h c r))

/-- A maximum along axis 1 (a row's maximum) taken from the accumulator's value, at row `r`. -/
theorem max_axis1 {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (fun g => (Finset.univ : Finset (Fin b)).fold max (Ideal.ofBits .f32 acc) g)
      (funext fun k => congrArg src (lift_axis1 h r k)))

/-- The host's reduction by maximum along axis 1 from a scalar starting value, at row `r`: the same fold. -/
theorem hostMax_axis1 {a b : ℕ} (x : (⟨2, ![a, b]⟩ : Shape).Idx → EReal) (init : (⟨0, ![]⟩ : Shape).Idx → EReal)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce (FloatOps.maximumf (F := Ideal) (φ := .f32)) x init h' hu (ix1 r)
      = (Finset.univ : Finset (Fin b)).fold max (init ix0) (fun k => x (ix2 r k)) := by
  refine (Host.reduce_eq_fold_single (FloatOps.maximumf (F := Ideal) (φ := .f32)) x init h' h hu (ix1 r)).trans ?_
  rw [show init (Shape.Idx.first hu) = init ix0 from congrArg init (funext fun a => a.elim0)]
  exact congrArg (fun g => (Finset.univ : Finset (Fin b)).fold max (init ix0) g)
    (funext fun k => congrArg x (lift_axis1 h r k))

end Cert.Dice

end
-- ==== Proof.KernelPay.lean ====
/-
  What one grid point of the kernel computes from the three blocks it loads — the logits' block `x` [8192, 9], the
  labels' block `t` [8192, 1] and the weights' block `w` [8192, 1] — read entry by entry over the extended reals:

    the weights broadcast along the classes        at (r, c):  w[r]
    the one-hot                                     at (r, c):  oneHot t[r] c
    the weighted softmax                            at (r, c):  rowSoftmax x[r, ·] c · w[r]
    the block's denominator part                    at c:       ∑ᵣ rowSoftmax x[r, ·] c · w[r]  +  ∑ᵣ oneHot t[r] c · w[r]
    the numerator accumulator after the point       at c:       (what it held) + ∑ᵣ oneHot t[r] c · (rowSoftmax x[r, ·] c · w[r])
    the denominator accumulator after the point     at c:       (what it held) + the block's denominator part
    what the first point resets both to                         0.
-/
import proofs.«106723_j1030792151082_2_alg».proof.Proof.Gen.KernelIdeal.Skeleton
import proofs.«106723_j1030792151082_2_alg».proof.Proof.Spec
import proofs.«106723_j1030792151082_2_alg».proof.Proof.Layout

noncomputable section

namespace Cert.KernelIdeal.Pay

open Cert.KernelIdeal Cert.KernelIdeal.Gen Cert.Dice Idealize.ShloMosaic Idealize.ShloMosaic.ValueIdx

/-- A column [8192] kept as [8192, 1] and broadcast along the nine classes reads row `r` at every class. -/
theorem bcastCol_apply (v : FVec Ideal S8192 .f32) (r : Fin 8192) (c : Fin 9) :
    broadcastTo S8192x9 (shapeCast S8192x1 v shapeCasts_S8192_S8192x1) broadcasts_S8192x1_S8192x9 (ix2 r c) = v (ix1 r) :=
  (broadcastTo_a1_ab_apply _ broadcasts_S8192x1_S8192x9 r c).trans (shapeCast_a_a1_apply v shapeCasts_S8192_S8192x1 r 0)

/-- The weights' block broadcast along the classes. -/
theorem pay4_apply (w : Vec Ideal S8192x1 .f32) (r : Fin 8192) (c : Fin 9) :
    k0_pay4 (F := Ideal) w (ix2 r c) = w (ix2 r 0) := by
  unfold k0_pay4
  refine (broadcastTo_a1_ab_apply _ broadcasts_S8192x1_S8192x9 r c).trans ?_
  rw [shapeCast_self, shapeCast_self]

/-- The one-hot of the labels' block. -/
theorem pay5_apply (t : Vec Ideal S8192x1 .i32) (r : Fin 8192) (c : Fin 9) :
    k0_pay5 (F := Ideal) t (ix2 r c) = oneHot (t (ix2 r 0)) c := by
  have e1 : iota .tc S8192x9 32 [1] iota_S8192x9_d1_w32 (ix2 r c) = BitVec.ofNat 32 c.val :=
    iota_single_apply .tc S8192x9 32 1 iota_S8192x9_d1_w32 (ix2 r c)
  have e2 : broadcastTo S8192x9 (shapeCast S8192x1 (shapeCast S8192x1 t shapeCasts_S8192x1_S8192x1) shapeCasts_S8192x1_S8192x1)
      broadcasts_S8192x1_S8192x9 (ix2 r c) = t (ix2 r 0) := by
    refine (broadcastTo_a1_ab_apply _ broadcasts_S8192x1_S8192x9 r c).trans ?_
    rw [shapeCast_self, shapeCast_self]
  unfold k0_pay5 oneHot
  show ((((IntOp.cmpi .eq (iota .tc S8192x9 32 [1] iota_S8192x9_d1_w32 (ix2 r c))
      (broadcastTo S8192x9 (shapeCast S8192x1 (shapeCast S8192x1 t shapeCasts_S8192x1_S8192x1) shapeCasts_S8192x1_S8192x1)
        broadcasts_S8192x1_S8192x9 (ix2 r c))).setWidth 32).toInt : ℝ) : EReal) = _
  rw [e1, e2]

/-- Each row's maximum, as the body takes it. -/
def rowMaxes (x : Vec Ideal S8192x9 .f32) : FVec Ideal S8192 .f32 :=
  maximumf (broadcast S8192 (Scalar.ofBits .f32 0xFF800000#32))
    (multiReduction .maximumf [1] S8192 x 0xFF800000#32 reduces_S8192x9_S8192 (.inl rfl) rfl)

theorem rowMaxes_apply (x : Vec Ideal S8192x9 .f32) (r : Fin 8192) :
    rowMaxes x (ix1 r) = rowMax (fun k => x (ix2 r k)) := by
  unfold rowMaxes rowMax
  show max (Ideal.ofBits .f32 0xFF800000#32) (multiReduction .maximumf [1] S8192 x 0xFF800000#32 reduces_S8192x9_S8192 (.inl rfl) rfl (ix1 r)) = _
  exact congrArg (max _) (max_axis1 x 0xFF800000#32 reduces_S8192x9_S8192 (.inl rfl) rfl r)

/-- The exponentials of the logits shifted by their row's maximum, as the body takes them. -/
def expShift (x : Vec Ideal S8192x9 .f32) : FVec Ideal S8192x9 .f32 :=
  exp (subf x (broadcastTo S8192x9 (shapeCast S8192x1 (rowMaxes x) shapeCasts_S8192_S8192x1) broadcasts_S8192x1_S8192x9))

theorem expShift_apply (x : Vec Ideal S8192x9 .f32) (r : Fin 8192) (k : Fin 9) :
    expShift x (ix2 r k) = Ideal.exp (x (ix2 r k) - rowMax (fun k => x (ix2 r k))) := by
  unfold expShift
  show Ideal.exp (x (ix2 r k) - broadcastTo S8192x9 (shapeCast S8192x1 (rowMaxes x) shapeCasts_S8192_S8192x1) broadcasts_S8192x1_S8192x9 (ix2 r k)) = _
  rw [bcastCol_apply, rowMaxes_apply]

/-- The weighted softmax of the block. -/
theorem pay6_apply (x : Vec Ideal S8192x9 .f32) (w : Vec Ideal S8192x1 .f32) (r : Fin 8192) (c : Fin 9) :
    k0_pay6 (F := Ideal) x w (ix2 r c) = rowSoftmax (fun k => x (ix2 r k)) c * w (ix2 r 0) := by
  unfold k0_pay6
  show Ideal.div (expShift x (ix2 r c))
      (broadcastTo S8192x9 (shapeCast S8192x1 (multiReduction .add [1] S8192 (expShift x) 0x00000000#32 reduces_S8192x9_S8192 (.inl rfl) rfl)
        shapeCasts_S8192_S8192x1) broadcasts_S8192x1_S8192x9 (ix2 r c)) * k0_pay4 w (ix2 r c) = _
  rw [bcastCol_apply, sum_axis1 (expShift x) 0x00000000#32 reduces_S8192x9_S8192 (.inl rfl) rfl r, pay4_apply]
  simp only [expShift_apply]
  rfl

/-- A class vector [9] kept as [1, 9] reads class `c` on its one row. -/
theorem rowOfClasses_apply (v : FVec Ideal S9 .f32) (c : Fin 9) :
    shapeCast S1x9 v shapeCasts_S9_S1x9 (ix2 (0 : Fin 1) c) = v (ix1 c) :=
  shapeCast_a_1a_apply v shapeCasts_S9_S1x9 0 c

/-- The block's part of the denominator. -/
theorem pay7_apply (x : Vec Ideal S8192x9 .f32) (t : Vec Ideal S8192x1 .i32) (w : Vec Ideal S8192x1 .f32) (c : Fin 9) :
    k0_pay7 (F := Ideal) x t w (ix2 (0 : Fin 1) c)
      = (∑ r : Fin 8192, rowSoftmax (fun k => x (ix2 r k)) c * w (ix2 r 0))
        + ∑ r : Fin 8192, oneHot (t (ix2 r 0)) c * w (ix2 r 0) := by
  unfold k0_pay7
  show shapeCast S1x9 (multiReduction .add [0] S9 (k0_pay6 x w) 0x00000000#32 reduces_S8192x9_S9 (.inl rfl) rfl) shapeCasts_S9_S1x9 (ix2 (0 : Fin 1) c)
      + shapeCast S1x9 (multiReduction .add [0] S9 (mulf (k0_pay5 t) (k0_pay4 w)) 0x00000000#32 reduces_S8192x9_S9 (.inl rfl) rfl) shapeCasts_S9_S1x9 (ix2 (0 : Fin 1) c) = _
  rw [rowOfClasses_apply, rowOfClasses_apply, sum_axis0 _ 0x00000000#32 reduces_S8192x9_S9 (.inl rfl) rfl c,
    sum_axis0 _ 0x00000000#32 reduces_S8192x9_S9 (.inl rfl) rfl c]
  refine congrArg₂ (· + ·) (Finset.sum_congr rfl fun r _ => pay6_apply x w r c) (Finset.sum_congr rfl fun r _ => ?_)
  show k0_pay5 t (ix2 r c) * k0_pay4 w (ix2 r c) = _
  rw [pay5_apply, pay4_apply]

/-- The numerator accumulator after the point, from what it held (`acc`). -/
theorem pay8_apply (x : Vec Ideal S8192x9 .f32) (t : Vec Ideal S8192x1 .i32) (w : Vec Ideal S8192x1 .f32)
    (acc : Vec Ideal S1x9 .f32) (c : Fin 9) :
    k0_pay8 (F := Ideal) x t w acc (ix2 (0 : Fin 1) c)
      = acc (ix2 (0 : Fin 1) c)
        + ∑ r : Fin 8192, oneHot (t (ix2 r 0)) c * (rowSoftmax (fun k => x (ix2 r k)) c * w (ix2 r 0)) := by
  unfold k0_pay8
  show shapeCast S1x9 acc shapeCasts_S1x9_S1x9 (ix2 (0 : Fin 1) c)
      + shapeCast S1x9 (multiReduction .add [0] S9 (mulf (k0_pay5 t) (k0_pay6 x w)) 0x00000000#32 reduces_S8192x9_S9 (.inl rfl) rfl) shapeCasts_S9_S1x9 (ix2 (0 : Fin 1) c) = _
  rw [shapeCast_self, rowOfClasses_apply, sum_axis0 _ 0x00000000#32 reduces_S8192x9_S9 (.inl rfl) rfl c]
  refine congrArg (acc (ix2 (0 : Fin 1) c) + ·) (Finset.sum_congr rfl fun r _ => ?_)
  show k0_pay5 t (ix2 r c) * k0_pay6 x w (ix2 r c) = _
  rw [pay5_apply, pay6_apply]

/-- The denominator accumulator after the point, from what it held (`acc`) and the block's part (`d`). -/
theorem pay1_apply (d : FVec Ideal S1x9 .f32) (acc : Vec Ideal S1x9 .f32) (y : S1x9.Idx) :
    k0_pay1 (F := Ideal) d acc y = acc y + d y := by
  unfold k0_pay1
  show shapeCast S1x9 acc shapeCasts_S1x9_S1x9 y + d y = _
  rw [shapeCast_self]

/-- What the first point resets the two accumulators to. -/
theorem pay2_apply (y : S1x9.Idx) : k0_pay2 (F := Ideal) y = 0 := Ideal.ofBits_zero_f32
theorem pay3_apply (y : S1x9.Idx) : k0_pay3 (F := Ideal) y = 0 := Ideal.ofBits_zero_f32

end Cert.KernelIdeal.Pay

end
-- ==== Proof.Blocks.lean ====
/-
  What the kernel's three input windows hold at a grid point, in terms of the program's arguments.

  At point `t` each window's block is rows `8192·t … 8192·t + 8191` of its array: block entry (r, k) is array entry
  (8192·t + r, k). The logits' array is the first argument itself. The labels' array is the second argument kept as a
  column [N, 1]. The weights' array is the column [N, 1] of the per-row weights, which the host computes from the labels
  by the same chain of comparisons and selections as the reference: it is stated as that chain and not opened.
-/
import proofs.«106723_j1030792151082_2_alg».proof.Proof.Gen.KernelIdeal.Frame
import proofs.«106723_j1030792151082_2_alg».proof.Proof.Gen.ReferenceIdeal.Read
import proofs.«106723_j1030792151082_2_alg».proof.Proof.Spec
import proofs.«106723_j1030792151082_2_alg».proof.Proof.Layout
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Cert.Dice
open Idealize.ShloMosaic Idealize.ShloMosaic.TcCoe Idealize.SL.Sem Idealize.ShloMosaic.ValueIdx Idealize.ShloMosaic.StableHlo

/-! ## The index maps, decided once over the grid -/

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

section Reads
variable {F : FTy → Type} [FloatOps F]
variable (m : (ℓ : Loc nD τ sig) → Buf (Elt F) ℓ)

/-- The logits' block at point `t` (row block `b`), entry (r, k): the array's entry (8192·b + r, k). -/
theorem x_block (c : Dev nD) (t : Fin cfg0.N) (b : Fin 1024) (hb : t.val = b.val) (r : Fin 8192) (k : Fin 9) :
    (iblk m c 0 t : Vec F S8192x9 .f32) (ix2 r k) = (V m c main_arg0 : Vec F S8388608x9 .f32) (ix2 (rowOf b r) k) := by
  unfold iblk
  rw [View.read_apply]
  show V m c main_arg0 _ = V m c main_arg0 _
  refine congrArg (V m c main_arg0) (funext fun a => Fin.ext ?_)
  match a with
  | ⟨0, _⟩ => show win0_0.index t (0 : Fin 2) * 8192 + 1 * r.val = b.val * 8192 + r.val; rw [(index0 t).1, hb]; omega
  | ⟨1, _⟩ => show win0_0.index t (1 : Fin 2) * 9 + 1 * k.val = k.val; rw [(index0 t).2]; omega

/-- The labels' block at point `t`, entry (r, 0). -/
theorem t_block (c : Dev nD) (t : Fin cfg0.N) (b : Fin 1024) (hb : t.val = b.val) (r : Fin 8192) (u : Fin 1) :
    (iblk m c 1 t : Vec F S8192x1 .i32) (ix2 r u) = (V m c main_v19 : Vec F S8388608x1 .i32) (ix2 (rowOf b r) u) := by
  unfold iblk
  rw [View.read_apply]
  show V m c main_v19 _ = V m c main_v19 _
  refine congrArg (V m c main_v19) (funext fun a => Fin.ext ?_)
  match a with
  | ⟨0, _⟩ => show win0_1.index t (0 : Fin 2) * 8192 + 1 * r.val = b.val * 8192 + r.val; rw [(index1 t).1, hb]; omega
  | ⟨1, _⟩ => show win0_1.index t (1 : Fin 2) * 1 + 1 * u.val = u.val; rw [(index1 t).2]; omega

/-- The weights' block at point `t`, entry (r, 0). -/
theorem w_block (c : Dev nD) (t : Fin cfg0.N) (b : Fin 1024) (hb : t.val = b.val) (r : Fin 8192) (u : Fin 1) :
    (iblk m c 2 t : Vec F S8192x1 .f32) (ix2 r u) = (V m c main_v20 : Vec F S8388608x1 .f32) (ix2 (rowOf b r) u) := by
  unfold iblk
  rw [View.read_apply]
  show V m c main_v20 _ = V m c main_v20 _
  refine congrArg (V m c main_v20) (funext fun a => Fin.ext ?_)
  match a with
  | ⟨0, _⟩ => show win0_2.index t (0 : Fin 2) * 8192 + 1 * r.val = b.val * 8192 + r.val; rw [(index2 t).1, hb]; omega
  | ⟨1, _⟩ => show win0_2.index t (1 : Fin 2) * 1 + 1 * u.val = u.val; rw [(index2 t).2]; omega

end Reads

/-! ## The two arrays the host makes before the region -/

section Host
variable (m : (ℓ : Loc nD τ sig) → Buf (Elt Ideal) ℓ)

/-- The labels' array is the second argument kept as a column. -/
theorem V_labels (c : Dev nD) :
    (V m c main_v19 : S8388608x1.Idx → BitVec 32)
      = shapeCast S8388608x1 (m ((c : Thread nD τ).loc main_arg1)) shapeCasts_S8388608_S8388608x1 := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

set_option maxHeartbeats 4000000 in
/-- The weights' array is the per-row weights — the same chain of comparisons and selections of the labels as the
    reference's — kept as a column. -/
theorem V_weights (c : Dev nD) :
    (V m c main_v20 : S8388608x1.Idx → EReal)
      = shapeCast S8388608x1 (Cert.ReferenceIdeal.Read.val_main_v30 (F := Ideal) (m ((c : Thread nD τ).loc main_arg1)))
          shapeCasts_S8388608_S8388608x1 := by
  dsimp only [V, V0]
  simp only [hostOps0, hostOps0_1, hostOps0_2, hostOps0_3, hostOps0_4, hostOps0_5, hostOps0_6, List.flatten_cons, List.flatten_nil,
    List.append_nil, List.cons_append, List.nil_append]
  after_results_simp <;> rfl

/-- Row `i`'s label, as the region finds it. -/
theorem label_apply (c : Dev nD) (i : Fin 8388608) :
    (V m c main_v19 : S8388608x1.Idx → BitVec 32) (ix2 i (0 : Fin 1)) = m ((c : Thread nD τ).loc main_arg1) (ix1 i) := by
  rw [V_labels]
  exact shapeCast_a_a1_apply _ shapeCasts_S8388608_S8388608x1 i 0

/-- Row `i`'s weight, as the region finds it. -/
theorem weight_apply (c : Dev nD) (i : Fin 8388608) :
    (V m c main_v20 : S8388608x1.Idx → EReal) (ix2 i (0 : Fin 1))
      = Cert.ReferenceIdeal.Read.val_main_v30 (F := Ideal) (m ((c : Thread nD τ).loc main_arg1)) (ix1 i) := by
  rw [V_weights]
  exact shapeCast_a_a1_apply _ shapeCasts_S8388608_S8388608x1 i 0

end Host

end Cert.KernelIdeal.Blocks

end
-- ==== Proof.Accum.lean ====
/-
  The two accumulators over the grid.

  Write, for the arrays as the kernel's windows find them, xᵢ for row i's logits, tᵢ for its label and wᵢ for its
  weight, and for a class c
      n(i) = oneHot tᵢ c · (rowSoftmax xᵢ c · wᵢ),   p(i) = rowSoftmax xᵢ c · wᵢ,   o(i) = oneHot tᵢ c · wᵢ.
  The first grid point leaves  0 + (block 0's sum of n)  in the numerator accumulator and
  0 + (block 0's sum of p + block 0's sum of o)  in the denominator accumulator; every later point adds its own
  block's sums to what the point before left. By induction on the point the accumulators hold the running sums of the
  block sums, and after the last of the 1024 points those are the sums over all rows (`sum_range_blockSum`).
-/
import proofs.«106723_j1030792151082_2_alg».proof.Proof.Pieces
import proofs.«106723_j1030792151082_2_alg».proof.Proof.KernelPay
import proofs.«106723_j1030792151082_2_alg».proof.Proof.Blocks

noncomputable section

namespace Cert.KernelIdeal.Accum

open Cert.KernelIdeal Cert.KernelIdeal.Gen Cert.KernelIdeal.Pieces Cert.KernelIdeal.Pay Cert.KernelIdeal.Blocks Cert.Dice
open Idealize.ShloMosaic Idealize.ShloMosaic.TcCoe Idealize.SL.Sem Idealize.ShloMosaic.ValueIdx

variable (m : (ℓ : Loc nD τ sig) → Buf (Elt Ideal) ℓ)

/-- Row `i`'s logits, label and weight, as the region finds them. -/
def logit (c : Dev nD) (i : Fin 8388608) (k : Fin 9) : EReal := (V m c main_arg0 : Vec Ideal S8388608x9 .f32) (ix2 i k)
def label (c : Dev nD) (i : Fin 8388608) : BitVec 32 := (V m c main_v19 : Vec Ideal S8388608x1 .i32) (ix2 i (0 : Fin 1))
def weight (c : Dev nD) (i : Fin 8388608) : EReal := (V m c main_v20 : Vec Ideal S8388608x1 .f32) (ix2 i (0 : Fin 1))

/-- Row `i`'s three terms at class `cl`. -/
def numerTerm (c : Dev nD) (cl : Fin 9) (i : Fin 8388608) : EReal :=
  oneHot (label m c i) cl * (rowSoftmax (logit m c i) cl * weight m c i)
def pwTerm (c : Dev nD) (cl : Fin 9) (i : Fin 8388608) : EReal := rowSoftmax (logit m c i) cl * weight m c i
def ohwTerm (c : Dev nD) (cl : Fin 9) (i : Fin 8388608) : EReal := oneHot (label m c i) cl * weight m c i

/-! ## One block's sums, from the blocks the point loads -/

theorem block_numer (c : Dev nD) (t : Fin cfg0.N) (b : Fin 1024) (hb : t.val = b.val) (cl : Fin 9) :
    ∑ r : Fin 8192, oneHot ((iblk m c 1 t : Vec Ideal S8192x1 .i32) (ix2 r (0 : Fin 1))) cl
        * (rowSoftmax (fun k => (iblk m c 0 t : Vec Ideal S8192x9 .f32) (ix2 r k)) cl
            * (iblk m c 2 t : Vec Ideal S8192x1 .f32) (ix2 r (0 : Fin 1)))
      = blockSum (numerTerm m c cl) b.val := by
  rw [blockSum_of_lt]
  refine Finset.sum_congr rfl fun r _ => ?_
  rw [t_block m c t b hb r 0, w_block m c t b hb r 0,
    show (fun k => (iblk m c 0 t : Vec Ideal S8192x9 .f32) (ix2 r k)) = logit m c (rowOf b r) from
      funext fun k => x_block m c t b hb r k]
  rfl

theorem block_pw (c : Dev nD) (t : Fin cfg0.N) (b : Fin 1024) (hb : t.val = b.val) (cl : Fin 9) :
    ∑ r : Fin 8192, rowSoftmax (fun k => (iblk m c 0 t : Vec Ideal S8192x9 .f32) (ix2 r k)) cl
        * (iblk m c 2 t : Vec Ideal S8192x1 .f32) (ix2 r (0 : Fin 1))
      = blockSum (pwTerm m c cl) b.val := by
  rw [blockSum_of_lt]
  refine Finset.sum_congr rfl fun r _ => ?_
  rw [w_block m c t b hb r 0,
    show (fun k => (iblk m c 0 t : Vec Ideal S8192x9 .f32) (ix2 r k)) = logit m c (rowOf b r) from
      funext fun k => x_block m c t b hb r k]
  rfl

theorem block_ohw (c : Dev nD) (t : Fin cfg0.N) (b : Fin 1024) (hb : t.val = b.val) (cl : Fin 9) :
    ∑ r : Fin 8192, oneHot ((iblk m c 1 t : Vec Ideal S8192x1 .i32) (ix2 r (0 : Fin 1))) cl
        * (iblk m c 2 t : Vec Ideal S8192x1 .f32) (ix2 r (0 : Fin 1))
      = blockSum (ohwTerm m c cl) b.val := by
  rw [blockSum_of_lt]
  refine Finset.sum_congr rfl fun r _ => ?_
  rw [t_block m c t b hb r 0, w_block m c t b hb r 0]
  rfl

/-! ## What the accumulators hold after one point -/

/-- After the first point: the block's sums (added to the zero just stored). -/
theorem value_first (c : Dev nD) (t : Fin cfg0.N) (h0 : t.val % 1024 = 0) (b : Fin 1024) (hb : t.val = b.val) (cl : Fin 9) :
    (outsAt0 m c t.val t.isLt).1 (ix2 (0 : Fin 1) cl) = blockSum (numerTerm m c cl) b.val
    ∧ (outsAt0 m c t.val t.isLt).2 (ix2 (0 : Fin 1) cl)
        = blockSum (pwTerm m c cl) b.val + blockSum (ohwTerm m c cl) b.val := by
  have e1 := first_numer c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)
  have e2 := first_denom c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)
  rw [outsAt0_A m c t h0]
  refine ⟨?_, ?_⟩
  · refine (congrFun e1 (ix2 (0 : Fin 1) cl)).trans ?_
    refine (pay8_apply (iblk m c 0 t) (iblk m c 1 t) (iblk m c 2 t) (k0_pay2 (F := Ideal)) cl).trans ?_
    rw [pay2_apply, zero_add]
    exact block_numer m c t b hb cl
  · refine (congrFun e2 (ix2 (0 : Fin 1) cl)).trans ?_
    refine (pay1_apply (k0_pay7 (iblk m c 0 t) (iblk m c 1 t) (iblk m c 2 t)) (k0_pay3 (F := Ideal)) (ix2 (0 : Fin 1) cl)).trans ?_
    rw [pay3_apply, zero_add]
    refine (pay7_apply (iblk m c 0 t) (iblk m c 1 t) (iblk m c 2 t) cl).trans ?_
    rw [block_pw m c t b hb cl, block_ohw m c t b hb cl]

/-- After a later point: what the point before left, plus the block's sums. -/
theorem value_later (c : Dev nD) (t : Fin cfg0.N) (h0 : ¬t.val % 1024 = 0) (b : Fin 1024) (hb : t.val = b.val) (cl : Fin 9) :
    (outsAt0 m c t.val t.isLt).1 (ix2 (0 : Fin 1) cl)
        = (outsAt0 m c (t.val - 1) (Nat.lt_of_le_of_lt (Nat.sub_le _ _) t.isLt)).1 (ix2 (0 : Fin 1) cl)
          + blockSum (numerTerm m c cl) b.val
    ∧ (outsAt0 m c t.val t.isLt).2 (ix2 (0 : Fin 1) cl)
        = (outsAt0 m c (t.val - 1) (Nat.lt_of_le_of_lt (Nat.sub_le _ _) t.isLt)).2 (ix2 (0 : Fin 1) cl)
          + (blockSum (pwTerm m c cl) b.val + blockSum (ohwTerm m c cl) b.val) := by
  have e1 := later_numer c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
    (outsAt0 m c (t.val - 1) (Nat.lt_of_le_of_lt (Nat.sub_le _ _) t.isLt)).1
    (outsAt0 m c (t.val - 1) (Nat.lt_of_le_of_lt (Nat.sub_le _ _) t.isLt)).2
  have e2 := later_denom c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
    (outsAt0 m c (t.val - 1) (Nat.lt_of_le_of_lt (Nat.sub_le _ _) t.isLt)).1
    (outsAt0 m c (t.val - 1) (Nat.lt_of_le_of_lt (Nat.sub_le _ _) t.isLt)).2
  rw [outsAt0_B m c t h0]
  refine ⟨?_, ?_⟩
  · refine (congrFun e1 (ix2 (0 : Fin 1) cl)).trans ?_
    refine (pay8_apply (iblk m c 0 t) (iblk m c 1 t) (iblk m c 2 t) _ cl).trans ?_
    rw [block_numer m c t b hb cl]
  · refine (congrFun e2 (ix2 (0 : Fin 1) cl)).trans ?_
    refine (pay1_apply (k0_pay7 (iblk m c 0 t) (iblk m c 1 t) (iblk m c 2 t)) _ (ix2 (0 : Fin 1) cl)).trans ?_
    refine congrArg (_ + ·) ?_
    refine (pay7_apply (iblk m c 0 t) (iblk m c 1 t) (iblk m c 2 t) cl).trans ?_
    rw [block_pw m c t b hb cl, block_ohw m c t b hb cl]

/-! ## The running sums -/

/-- After point `n` the accumulators hold the sums of the first `n + 1` blocks' sums. -/
theorem acc_eq (c : Dev nD) : ∀ (n : ℕ) (h : n < cfg0.N) (cl : Fin 9),
    (outsAt0 m c n h).1 (ix2 (0 : Fin 1) cl) = ∑ b ∈ Finset.range (n + 1), blockSum (numerTerm m c cl) b
    ∧ (outsAt0 m c n h).2 (ix2 (0 : Fin 1) cl)
        = ∑ b ∈ Finset.range (n + 1), (blockSum (pwTerm m c cl) b + blockSum (ohwTerm m c cl) b)
  | 0, h, cl => by
    obtain ⟨e1, e2⟩ := value_first m c ⟨0, h⟩ rfl ⟨0, by norm_num⟩ rfl cl
    rw [Finset.sum_range_one, Finset.sum_range_one]
    exact ⟨e1, e2⟩
  | n + 1, h, cl => by
    have hlt : n + 1 < 1024 := lt_of_lt_of_eq h (show cfg0.N = 1024 from N_0)
    have hB : ¬(⟨n + 1, h⟩ : Fin cfg0.N).val % 1024 = 0 := by dsimp only; omega
    obtain ⟨e1, e2⟩ := value_later m c ⟨n + 1, h⟩ hB ⟨n + 1, hlt⟩ rfl cl
    obtain ⟨i1, i2⟩ := acc_eq c n (Nat.lt_of_succ_lt h) cl
    rw [Finset.sum_range_succ _ (n + 1), Finset.sum_range_succ _ (n + 1)]
    exact ⟨e1.trans (congrArg (· + blockSum (numerTerm m c cl) (n + 1)) i1),
      e2.trans (congrArg (· + (blockSum (pwTerm m c cl) (n + 1) + blockSum (ohwTerm m c cl) (n + 1))) i2)⟩

/-- After the last point the numerator accumulator holds the sum over all rows. -/
theorem numer_last (c : Dev nD) (h : 1023 < cfg0.N) (cl : Fin 9) :
    (outsAt0 m c 1023 h).1 (ix2 (0 : Fin 1) cl) = ∑ i : Fin 8388608, numerTerm m c cl i := by
  rw [(acc_eq m c 1023 h cl).1]
  exact sum_range_blockSum (numerTerm m c cl)

/-- After the last point the denominator accumulator holds the two sums over all rows. -/
theorem denom_last (c : Dev nD) (h : 1023 < cfg0.N) (cl : Fin 9) :
    (outsAt0 m c 1023 h).2 (ix2 (0 : Fin 1) cl)
      = (∑ i : Fin 8388608, pwTerm m c cl i) + ∑ i : Fin 8388608, ohwTerm m c cl i := by
  rw [(acc_eq m c 1023 h cl).2, Finset.sum_add_distrib]
  exact congrArg₂ (· + ·) (sum_range_blockSum (pwTerm m c cl)) (sum_range_blockSum (ohwTerm m c cl))

end Cert.KernelIdeal.Accum

end
-- ==== Proof.RefRead.lean ====
/-
  The reference read entry by entry over the extended reals, from logits `x` [N, 9] and labels `t` [N]:

    its row maximum, shifted exponentials, row sums and quotient are the row softmax:  p[i, c] = rowSoftmax x[i, ·] c
    its one-hot is the comparison's bit read as a number:                               oh[i, c] = oneHot t[i] c
    its three sums over the rows start from zero, so at class c they are
        numer[c] = ∑ᵢ (p[i, c] · oh[i, c]) · w[i]  =  ∑ᵢ oh[i, c] · (p[i, c] · w[i])       (· is commutative and associative)
        denom[c] = ∑ᵢ p[i, c] · w[i]  +  ∑ᵢ oh[i, c] · w[i].
  The per-row weight w[i] is whatever the reference's chain of comparisons and selections of the labels gives at row i
  (`weightOf`): the other program applies the same chain, so it is never opened.
-/
import proofs.«106723_j1030792151082_2_alg».proof.Proof.Gen.ReferenceIdeal.Read
import proofs.«106723_j1030792151082_2_alg».proof.Proof.Spec
import proofs.«106723_j1030792151082_2_alg».proof.Proof.Layout

noncomputable section

namespace Cert.ReferenceIdeal.RefValue

open Cert.ReferenceIdeal Cert.ReferenceIdeal.Gen Cert.ReferenceIdeal.Read Cert.Dice
open Idealize.ShloMosaic Idealize.ShloMosaic.ValueIdx

/-- The logits and the labels, as the reference's stages take them. -/
abbrev Logits : Type := (⟨S8388608x9, .f32⟩ : BufTy).Contents (Elt Ideal)
abbrev Labels : Type := (⟨S8388608, .i32⟩ : BufTy).Contents (Elt Ideal)

/-- Row `i`'s weight: the reference's chain of comparisons and selections of the labels, at row `i`. -/
def weightOf (t : Labels) (i : Fin 8388608) : EReal := val_main_v30 (F := Ideal) t (ix1 i)

/-- The reference's row maximum, before it is taken once more against −∞. -/
theorem max0_apply (x : Logits) (i : Fin 8388608) :
    val_main_v0 (F := Ideal) x (ix1 i)
      = (Finset.univ : Finset (Fin 9)).fold max negInf (fun k => x (ix2 i k)) := by
  unfold val_main_v0
  exact hostMax_axis1 x (val_main_cst (F := Ideal)) reducesTo_S8388608x9_S8388608_d1 (by decide) h_S_ i

/-- The reference's row maximum. -/
theorem max_apply (x : Logits) (i : Fin 8388608) :
    val_main_v2 (F := Ideal) x (ix1 i) = rowMax (fun k => x (ix2 i k)) := by
  rw [val_main_v2_apply, max0_apply, val_main_v1_apply]
  rfl

/-- … broadcast back over the classes. -/
theorem maxb_apply (x : Logits) (i : Fin 8388608) (c : Fin 9) :
    val_main_v4 (F := Ideal) x (ix2 i c) = rowMax (fun k => x (ix2 i k)) := by
  rw [val_main_v4_apply, val_main_v3_apply,
    show idx_main_v3 (idx_main_v4 (ix2 i c)) = ix1 i from funext fun a => Fin.ext (by match a with | ⟨0, _⟩ => rfl)]
  exact max_apply x i

/-- The shifted exponentials. -/
theorem exp_apply (x : Logits) (i : Fin 8388608) (c : Fin 9) :
    val_main_v6 (F := Ideal) x (ix2 i c) = Ideal.exp (x (ix2 i c) - rowMax (fun k => x (ix2 i k))) := by
  rw [val_main_v6_apply, val_main_v5_apply, maxb_apply]
  rfl

/-- Their row sums (from zero). -/
theorem expsum_apply (x : Logits) (i : Fin 8388608) :
    val_main_v7 (F := Ideal) x (ix1 i) = ∑ k : Fin 9, Ideal.exp (x (ix2 i k) - rowMax (fun k => x (ix2 i k))) := by
  rw [val_main_v7_apply, val_main_cst_1_apply, Ideal.ofBits_def, Ideal.ofBits_zero_f32, zero_add]
  refine Finset.sum_congr rfl fun k _ => ?_
  rw [show idx_main_v7 (ix1 i) k = ix2 i k from funext fun a => Fin.ext (by match a with | ⟨0, _⟩ => rfl | ⟨1, _⟩ => rfl)]
  exact exp_apply x i k

/-- The row sums broadcast back over the classes. -/
theorem expsumb_apply (x : Logits) (i : Fin 8388608) (c : Fin 9) :
    val_main_v9 (F := Ideal) x (ix2 i c) = ∑ k : Fin 9, Ideal.exp (x (ix2 i k) - rowMax (fun k => x (ix2 i k))) := by
  rw [val_main_v9_apply, val_main_v8_apply,
    show idx_main_v8 (idx_main_v9 (ix2 i c)) = ix1 i from funext fun a => Fin.ext (by match a with | ⟨0, _⟩ => rfl)]
  exact expsum_apply x i

/-- The reference's softmax is the row softmax. -/
theorem softmax_apply (x : Logits) (i : Fin 8388608) (c : Fin 9) :
    val_main_v10 (F := Ideal) x (ix2 i c) = rowSoftmax (fun k => x (ix2 i k)) c := by
  rw [val_main_v10_apply, expsumb_apply, exp_apply]
  rfl

/-- The reference's one-hot is the label's one-hot. -/
theorem onehot_apply (t : Labels) (i : Fin 8388608) (c : Fin 9) :
    val_main_v11 (F := Ideal) t (ix2 i c) = oneHot (t (ix1 i)) c := by
  rw [val_main_v11_apply, val_main_call0_v4_apply, val_main_call0_v2_apply, val_main_call0_v0_apply, val_main_call0_v3_apply,
    val_main_call0_v1_apply,
    show idx_main_call0_v0 (idx_main_call0_v2 (ix2 i c)) = ix1 i from funext fun a => Fin.ext (by match a with | ⟨0, _⟩ => rfl)]
  exact oneHot_swap (t (ix1 i)) c

/-- The weights kept as a column, -/
theorem wcol_apply (t : Labels) (i : Fin 8388608) (u : Fin 1) :
    val_main_v31 (F := Ideal) t (ix2 i u) = weightOf t i := by
  rw [val_main_v31_apply]
  exact congrArg (val_main_v30 (F := Ideal) t) (funext fun a => Fin.ext (by match a with | ⟨0, _⟩ => rfl))

/-- and broadcast over the classes, three times over. -/
theorem w33_apply (t : Labels) (i : Fin 8388608) (c : Fin 9) : val_main_v33 (F := Ideal) t (ix2 i c) = weightOf t i := by
  rw [val_main_v33_apply, show idx_main_v33 (ix2 i c) = ix2 i (0 : Fin 1) from
    funext fun a => Fin.ext (by match a with | ⟨0, _⟩ => rfl | ⟨1, _⟩ => rfl)]
  exact wcol_apply t i 0
theorem w36_apply (t : Labels) (i : Fin 8388608) (c : Fin 9) : val_main_v36 (F := Ideal) t (ix2 i c) = weightOf t i := by
  rw [val_main_v36_apply, show idx_main_v36 (ix2 i c) = ix2 i (0 : Fin 1) from
    funext fun a => Fin.ext (by match a with | ⟨0, _⟩ => rfl | ⟨1, _⟩ => rfl)]
  exact wcol_apply t i 0
theorem w39_apply (t : Labels) (i : Fin 8388608) (c : Fin 9) : val_main_v39 (F := Ideal) t (ix2 i c) = weightOf t i := by
  rw [val_main_v39_apply, show idx_main_v39 (ix2 i c) = ix2 i (0 : Fin 1) from
    funext fun a => Fin.ext (by match a with | ⟨0, _⟩ => rfl | ⟨1, _⟩ => rfl)]
  exact wcol_apply t i 0

/-- One row's term of the numerator: (softmax · one-hot) · weight, regrouped. -/
theorem numer_term (x : Logits) (t : Labels) (i : Fin 8388608) (c : Fin 9) :
    val_main_v34 (F := Ideal) x t (ix2 i c) = oneHot (t (ix1 i)) c * (rowSoftmax (fun k => x (ix2 i k)) c * weightOf t i) := by
  rw [val_main_v34_apply, val_main_v32_apply, softmax_apply, onehot_apply, w33_apply, Ideal.mulf_def, Ideal.mulf_def,
    mul_comm (rowSoftmax _ c) (oneHot _ c), mul_assoc]

theorem pw_term (x : Logits) (t : Labels) (i : Fin 8388608) (c : Fin 9) :
    val_main_v37 (F := Ideal) x t (ix2 i c) = rowSoftmax (fun k => x (ix2 i k)) c * weightOf t i := by
  rw [val_main_v37_apply, softmax_apply, w36_apply, Ideal.mulf_def]

theorem ohw_term (t : Labels) (i : Fin 8388608) (c : Fin 9) :
    val_main_v40 (F := Ideal) t (ix2 i c) = oneHot (t (ix1 i)) c * weightOf t i := by
  rw [val_main_v40_apply, onehot_apply, w39_apply, Ideal.mulf_def]

/-- The reference's numerator at class `c`. -/
theorem numer_apply (x : Logits) (t : Labels) (c : Fin 9) :
    val_main_v35 (F := Ideal) x t (ix1 c)
      = ∑ i : Fin 8388608, oneHot (t (ix1 i)) c * (rowSoftmax (fun k => x (ix2 i k)) c * weightOf t i) := by
  rw [val_main_v35_apply, val_main_cst_10_apply, Ideal.ofBits_def, Ideal.ofBits_zero_f32, zero_add]
  refine Finset.sum_congr rfl fun i _ => ?_
  rw [show idx_main_v35 (ix1 c) i = ix2 i c from funext fun a => Fin.ext (by match a with | ⟨0, _⟩ => rfl | ⟨1, _⟩ => rfl)]
  exact numer_term x t i c

/-- The reference's two denominator sums at class `c`. -/
theorem pwsum_apply (x : Logits) (t : Labels) (c : Fin 9) :
    val_main_v38 (F := Ideal) x t (ix1 c) = ∑ i : Fin 8388608, rowSoftmax (fun k => x (ix2 i k)) c * weightOf t i := by
  rw [val_main_v38_apply, val_main_cst_11_apply, Ideal.ofBits_def, Ideal.ofBits_zero_f32, zero_add]
  refine Finset.sum_congr rfl fun i _ => ?_
  rw [show idx_main_v38 (ix1 c) i = ix2 i c from funext fun a => Fin.ext (by match a with | ⟨0, _⟩ => rfl | ⟨1, _⟩ => rfl)]
  exact pw_term x t i c

theorem ohwsum_apply (t : Labels) (c : Fin 9) :
    val_main_v41 (F := Ideal) t (ix1 c) = ∑ i : Fin 8388608, oneHot (t (ix1 i)) c * weightOf t i := by
  rw [val_main_v41_apply, val_main_cst_12_apply, Ideal.ofBits_def, Ideal.ofBits_zero_f32, zero_add]
  refine Finset.sum_congr rfl fun i _ => ?_
  rw [show idx_main_v41 (ix1 c) i = ix2 i c from funext fun a => Fin.ext (by match a with | ⟨0, _⟩ => rfl | ⟨1, _⟩ => rfl)]
  exact ohw_term t i c

/-- The reference's denominator at class `c`. -/
theorem denom_apply (x : Logits) (t : Labels) (c : Fin 9) :
    val_main_v42 (F := Ideal) x t (ix1 c)
      = (∑ i : Fin 8388608, rowSoftmax (fun k => x (ix2 i k)) c * weightOf t i)
        + ∑ i : Fin 8388608, oneHot (t (ix1 i)) c * weightOf t i := by
  rw [val_main_v42_apply, pwsum_apply, ohwsum_apply, Ideal.addf_def]

end Cert.ReferenceIdeal.RefValue

end
-- ==== Proof.Tail.lean ====
/-
  The last lines both programs share: from the nine numerators `n` and the nine denominators `d`,
      1 − (∑_c (2·n[c] + ε) / (d[c] + ε)) / 9        (ε the single-precision value nearest 1e-5),
  named as one function so that it is compared, never opened.
-/
import proofs.«106723_j1030792151082_2_alg».proof.Proof.RefRead

noncomputable section

namespace Cert.ReferenceIdeal.RefValue

open Cert.ReferenceIdeal Cert.ReferenceIdeal.Gen Cert.ReferenceIdeal.Read
open Idealize.ShloMosaic

/-- One minus the mean over the classes of the smoothed ratios. -/
def tail (n d : (⟨S9, .f32⟩ : BufTy).Contents (Elt Ideal)) : (⟨S_, .f32⟩ : BufTy).Contents (Elt Ideal) :=
  subf (constant (F := Ideal) S_ .f32 0x3F800000#32)
    (Host.divf (F := Ideal)
      (Host.reduceAdd (F := Ideal)
        (Host.divf (F := Ideal)
          (addf (mulf (broadcastInDim S9 ![] bcast_S_S9 (constant (F := Ideal) S_ .f32 0x40000000#32)) n)
            (broadcastInDim S9 ![] bcast_S_S9 (constant (F := Ideal) S_ .f32 0x3727C5AC#32)))
          (addf d (broadcastInDim S9 ![] bcast_S_S9 (constant (F := Ideal) S_ .f32 0x3727C5AC#32))))
        (constant (F := Ideal) S_ .f32 0x00000000#32) reducesTo_S9_S_d0 h_S_)
      (constant (F := Ideal) S_ .f32 0x41100000#32))

/-- The reference's result is the tail of its numerators and denominators. -/
theorem result_eq_tail (x : Logits) (t : Labels) :
    val_main_v52 (F := Ideal) x t = tail (val_main_v35 (F := Ideal) x t) (val_main_v42 (F := Ideal) x t) := rfl

end Cert.ReferenceIdeal.RefValue

end
-- ==== Proof.Result.lean ====
/-
  What the kernel's program ends with.

  Each accumulator's [1, 9] block is written back to its array once, after the last grid point, and the block is the
  whole array: so the numerators' array ends holding, at class c, the sum over all rows of n(i), and the denominators'
  array the sum of p(i) plus the sum of o(i) (`Accum`). The lines after the region read the two arrays as [9] vectors
  and apply the shared tail to them.
-/
import proofs.«106723_j1030792151082_2_alg».proof.Proof.Accum
import proofs.«106723_j1030792151082_2_alg».proof.Proof.Tail

noncomputable section

namespace Cert.KernelIdeal.Result

open Cert.KernelIdeal Cert.KernelIdeal.Gen Cert.KernelIdeal.Accum Cert.Dice
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The two output windows never move and are not cut: decided once over the grid -/

theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem xsize3 : ∀ t : Fin cfg0.N, win0_3.xsize (grid0.coords t) (0 : Fin 2) = 1 ∧ win0_3.xsize (grid0.coords t) (1 : Fin 2) = 9 :=
  (by decide +kernel : ∀ t : Fin grid0.N, win0_3.xsize (grid0.coords t) (0 : Fin 2) = 1 ∧ win0_3.xsize (grid0.coords t) (1 : Fin 2) = 9)
theorem xsize4 : ∀ t : Fin cfg0.N, win0_4.xsize (grid0.coords t) (0 : Fin 2) = 1 ∧ win0_4.xsize (grid0.coords t) (1 : Fin 2) = 9 :=
  (by decide +kernel : ∀ t : Fin grid0.N, win0_4.xsize (grid0.coords t) (0 : Fin 2) = 1 ∧ win0_4.xsize (grid0.coords t) (1 : Fin 2) = 9)

/-- The last grid point. -/
def tlast : Fin cfg0.N := ⟨1023, lt_of_lt_of_eq (by norm_num : (1023 : ℕ) < 1024) (show cfg0.N = 1024 from N_0).symm⟩

/-! ## The arrays after the run -/

/-- The numerators: at class `c`, the sum over all rows. -/
def numerArr (c : Dev nD) : S1x9.Idx → EReal := fun y => ∑ i : Fin 8388608, numerTerm m c ⟨(y 1).val, idx2_lt1 y⟩ i
/-- The denominators: at class `c`, the two sums over all rows. -/
def denomArr (c : Dev nD) : S1x9.Idx → EReal := fun y =>
  (∑ i : Fin 8388608, pwTerm m c ⟨(y 1).val, idx2_lt1 y⟩ i) + ∑ i : Fin 8388608, ohwTerm m c ⟨(y 1).val, idx2_lt1 y⟩ i

/-- After the last point the numerator accumulator is that array's contents. -/
theorem numer_acc (c : Dev nD) (h : 1023 < cfg0.N) : (outsAt0 m c 1023 h).1 = numerArr m c := by
  funext y
  obtain ⟨u, cl, rfl⟩ : ∃ (u : Fin 1) (cl : Fin 9), y = ix2 u cl := ⟨y 0, y 1, eq_ix2 y⟩
  obtain rfl : u = 0 := Subsingleton.elim _ _
  exact numer_last m c h cl

theorem denom_acc (c : Dev nD) (h : 1023 < cfg0.N) : (outsAt0 m c 1023 h).2 = denomArr m c := by
  funext y
  obtain ⟨u, cl, rfl⟩ : ∃ (u : Fin 1) (cl : Fin 9), y = ix2 u cl := ⟨y 0, y 1, eq_ix2 y⟩
  obtain rfl : u = 0 := Subsingleton.elim _ _
  exact denom_last m c h cl

/-- The same at a point known only to be the last. -/
theorem numer_acc_at (c : Dev nD) (t : Fin cfg0.N) (h3 : t.val = 1023) : (outsAt0 m c t.val t.isLt).1 = numerArr m c := by
  have key : ∀ (n : ℕ) (hn : n < cfg0.N), n = 1023 → (outsAt0 m c n hn).1 = numerArr m c := by
    intro n hn e; subst e; exact numer_acc m c hn
  exact key t.val t.isLt h3

theorem denom_acc_at (c : Dev nD) (t : Fin cfg0.N) (h3 : t.val = 1023) : (outsAt0 m c t.val t.isLt).2 = denomArr m c := by
  have key : ∀ (n : ℕ) (hn : n < cfg0.N), n = 1023 → (outsAt0 m c n hn).2 = denomArr m c := by
    intro n hn e; subst e; exact denom_acc m c hn
  exact key t.val t.isLt h3

/-- The one write-back of the numerators, after the last point, writes that array (its one block is the whole array). -/
theorem flushed3 (c : Dev nD) (t : Fin cfg0.N) (hf : (cfg0.win 3).flush t = true) :
    (dats m 0 c).flushed 3 t = ((cfg0.win 3).blk t).view.read (Elt Ideal) (numerArr m c) := by
  have hN : cfg0.N = 1024 := N_0
  have h3 : t.val = 1023 := by have := (flush0_3 t).mp hf; have := t.isLt; omega
  show (cfg0.win 3).cut (grid0.coords t) ((dats m 0 c).after 3 t) = _
  rw [after0_3, numer_acc_at m c t h3]
  have hz' : (fun a => win0_3.index t a * main_v21_0.ty.shape.size a) = fun _ => 0 := funext fun a => by
    match a with
    | ⟨0, _⟩ => show win0_3.index t (0 : Fin 2) * _ = 0; rw [(index3 t).1, Nat.zero_mul]
    | ⟨1, _⟩ => show win0_3.index t (1 : Fin 2) * _ = 0; rw [(index3 t).2, Nat.zero_mul]
  exact (Memref.read_access_unit_zero (Elt Ideal) main_v21_0 hz' (fun a => by rw [congrFun hz' a]; simp) (numerArr m c)).symm

theorem flushed4 (c : Dev nD) (t : Fin cfg0.N) (hf : (cfg0.win 4).flush t = true) :
    (dats m 0 c).flushed 4 t = ((cfg0.win 4).blk t).view.read (Elt Ideal) (denomArr m c) := by
  have hN : cfg0.N = 1024 := N_0
  have h3 : t.val = 1023 := by have := (flush0_4 t).mp hf; have := t.isLt; omega
  show (cfg0.win 4).cut (grid0.coords t) ((dats m 0 c).after 4 t) = _
  rw [after0_4, denom_acc_at m c t h3]
  have hz' : (fun a => win0_4.index t a * main_v21_1.ty.shape.size a) = fun _ => 0 := funext fun a => by
    match a with
    | ⟨0, _⟩ => show win0_4.index t (0 : Fin 2) * _ = 0; rw [(index4 t).1, Nat.zero_mul]
    | ⟨1, _⟩ => show win0_4.index t (1 : Fin 2) * _ = 0; rw [(index4 t).2, Nat.zero_mul]
  exact (Memref.read_access_unit_zero (Elt Ideal) main_v21_1 hz' (fun a => by rw [congrFun hz' a]; simp) (denomArr m c)).symm

/-- So the numerators' array ends holding the sums over all rows: the last point's block covers it. -/
theorem final3 (c : Dev nD) : (dats m 0 c).arrAt 3 cfg0.N = numerArr m c :=
  (dats m 0 c).arrAt_eq_of_cover 3 (numerArr m c) (flushed3 m c) fun i =>
    ⟨tlast, (flush0_3 tlast).mpr rfl, by
      show i ∈ ((View.whole main_v21_0).slice (win0_3.rect tlast)).set
      rw [View.set_slice_whole, Rect.mem_set_unit]
      intro a
      have h0 : (i 0 : Nat) < 1 := (i 0).isLt
      have h1 : (i 1 : Nat) < 9 := (i 1).isLt
      match a with
      | ⟨0, _⟩ =>
        show win0_3.index tlast (0 : Fin 2) * win0_3.size 0 ≤ (i 0 : Nat)
          ∧ (i 0 : Nat) < win0_3.index tlast (0 : Fin 2) * win0_3.size 0 + win0_3.xsize (grid0.coords tlast) (0 : Fin 2)
        rw [(index3 tlast).1, (xsize3 tlast).1, Nat.zero_mul]; omega
      | ⟨1, _⟩ =>
        show win0_3.index tlast (1 : Fin 2) * win0_3.size 1 ≤ (i 1 : Nat)
          ∧ (i 1 : Nat) < win0_3.index tlast (1 : Fin 2) * win0_3.size 1 + win0_3.xsize (grid0.coords tlast) (1 : Fin 2)
        rw [(index3 tlast).2, (xsize3 tlast).2, Nat.zero_mul]; omega⟩

theorem final4 (c : Dev nD) : (dats m 0 c).arrAt 4 cfg0.N = denomArr m c :=
  (dats m 0 c).arrAt_eq_of_cover 4 (denomArr m c) (flushed4 m c) fun i =>
    ⟨tlast, (flush0_4 tlast).mpr rfl, by
      show i ∈ ((View.whole main_v21_1).slice (win0_4.rect tlast)).set
      rw [View.set_slice_whole, Rect.mem_set_unit]
      intro a
      have h0 : (i 0 : Nat) < 1 := (i 0).isLt
      have h1 : (i 1 : Nat) < 9 := (i 1).isLt
      match a with
      | ⟨0, _⟩ =>
        show win0_4.index tlast (0 : Fin 2) * win0_4.size 0 ≤ (i 0 : Nat)
          ∧ (i 0 : Nat) < win0_4.index tlast (0 : Fin 2) * win0_4.size 0 + win0_4.xsize (grid0.coords tlast) (0 : Fin 2)
        rw [(index4 tlast).1, (xsize4 tlast).1, Nat.zero_mul]; omega
      | ⟨1, _⟩ =>
        show win0_4.index tlast (1 : Fin 2) * win0_4.size 1 ≤ (i 1 : Nat)
          ∧ (i 1 : Nat) < win0_4.index tlast (1 : Fin 2) * win0_4.size 1 + win0_4.xsize (grid0.coords tlast) (1 : Fin 2)
        rw [(index4 tlast).2, (xsize4 tlast).2, Nat.zero_mul]; omega⟩

/-! ## The lines after the region -/

/-- The two arrays read as [9] vectors. -/
def numerVec (c : Dev nD) : S9.Idx → EReal := shapeCast S9 (numerArr m c) shapeCasts_S1x9_S9
def denomVec (c : Dev nD) : S9.Idx → EReal := shapeCast S9 (denomArr m c) shapeCasts_S1x9_S9

/-- The program's result is the shared tail of the two vectors. -/
theorem tail_eq (c : Dev nD) :
    (Pipeline.afterTail₀ cfgs (dats m) 0 (V0 m) [hostOps1] c main_v33 : S_.Idx → EReal)
      = Cert.ReferenceIdeal.RefValue.tail (numerVec m c) (denomVec m c) := by
  have h3 : Pipeline.withArrays (cfgs 0).spec c (V0 m c) (fun w => (dats m 0 c).arrAt w (cfgs 0).N) (Proc.devRef .tc main_v21_0)
      = numerArr m c := (Pipeline.withArrays_arr spec0 launch0.win.arr_inj c _ _ 3).trans (final3 m c)
  have h4 : Pipeline.withArrays (cfgs 0).spec c (V0 m c) (fun w => (dats m 0 c).arrAt w (cfgs 0).N) (Proc.devRef .tc main_v21_1)
      = denomArr m c := (Pipeline.withArrays_arr spec0 launch0.win.arr_inj c _ _ 4).trans (final4 m c)
  unfold Pipeline.afterTail₀ numerVec denomVec
  show StableHlo.after hostOps1 _ (Proc.devRef .tc main_v33) = _
  after_results
  rw [h3, h4]
  generalize numerArr m c = N
  generalize denomArr m c = D
  rfl

/-- The run, read: the result at the tail of the two vectors, the arguments unchanged. -/
theorem run : θ_run defs (onTc (τ := τ) (main (F := Ideal))) ⟨m, fun _ => 0, ρ⟩ fun r => ∀ c : Dev nD,
      r.2.mem ((c : Thread nD τ).loc main_v33) = Cert.ReferenceIdeal.RefValue.tail (numerVec m c) (denomVec m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v33 (Pipeline.mem_restRefs_of main_v33 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result

end
-- ==== Proof.Bridge.lean ====
/-
  The two programs' results are one function of the arguments.

  The kernel's program ends with the shared tail applied to its numerators and denominators — at class c, ∑ᵢ n(i) and
  ∑ᵢ p(i) + ∑ᵢ o(i), with row i's logits the first argument's row, its label the second argument's entry and its
  weight the shared chain of the labels at i. The reference's numerators and denominators are, read entry by entry,
  the same sums of the same terms (its product (softmax · one-hot) · weight regrouped as one-hot · (softmax · weight));
  the arguments agree; so the tails are applied to equal vectors.
-/
import proofs.«106723_j1030792151082_2_alg».proof.Defs
import proofs.«106723_j1030792151082_2_alg».proof.Proof.Gen.Kernel.Frame
import proofs.«106723_j1030792151082_2_alg».proof.Proof.Gen.KernelIdeal.Frame
import proofs.«106723_j1030792151082_2_alg».proof.Proof.Gen.ReferenceIdeal.Run
import proofs.«106723_j1030792151082_2_alg».proof.Proof.Gen.ReferenceIdeal.Read
import proofs.«106723_j1030792151082_2_alg».proof.Proof.Gen.Pre_finite_inputs
import proofs.«106723_j1030792151082_2_alg».proof.Proof.Result

noncomputable section

namespace Cert.Proof.Bridge

open Cert.KernelIdeal Cert.KernelIdeal.Gen Cert.KernelIdeal.Accum Cert.KernelIdeal.Blocks Cert.KernelIdeal.Result Cert.Dice
open Cert.ReferenceIdeal.RefValue
open Idealize.ShloMosaic Idealize.ShloMosaic.TcCoe Idealize.SL.Sem Idealize.ShloMosaic.ValueIdx

variable (m : (ℓ : Loc nD τ sig) → Buf (Elt Ideal) ℓ)

/-- The kernel's two arguments, as the reference's stages take them. -/
abbrev xOf (c : Dev nD) : Cert.ReferenceIdeal.RefValue.Logits := m ((c : Thread nD τ).loc main_arg0)
abbrev tOf (c : Dev nD) : Cert.ReferenceIdeal.RefValue.Labels := m ((c : Thread nD τ).loc main_arg1)

theorem numerTerm_eq (c : Dev nD) (cl : Fin 9) (i : Fin 8388608) :
    numerTerm m c cl i
      = oneHot (tOf m c (ix1 i)) cl * (rowSoftmax (fun k => xOf m c (ix2 i k)) cl * weightOf (tOf m c) i) := by
  unfold numerTerm label weight logit weightOf
  rw [label_apply m c i, weight_apply m c i, V_main_arg0 m c]

theorem pwTerm_eq (c : Dev nD) (cl : Fin 9) (i : Fin 8388608) :
    pwTerm m c cl i = rowSoftmax (fun k => xOf m c (ix2 i k)) cl * weightOf (tOf m c) i := by
  unfold pwTerm weight logit weightOf
  rw [weight_apply m c i, V_main_arg0 m c]

theorem ohwTerm_eq (c : Dev nD) (cl : Fin 9) (i : Fin 8388608) :
    ohwTerm m c cl i = oneHot (tOf m c (ix1 i)) cl * weightOf (tOf m c) i := by
  unfold ohwTerm label weight weightOf
  rw [label_apply m c i, weight_apply m c i]

/-- The kernel's numerators are the reference's. -/
theorem numer_bridge (c : Dev nD) :
    numerVec m c = Cert.ReferenceIdeal.Read.val_main_v35 (F := Ideal) (xOf m c) (tOf m c) := by
  funext j
  obtain ⟨cl, rfl⟩ : ∃ cl : Fin 9, j = ix1 cl := ⟨j 0, eq_ix1 j⟩
  unfold numerVec
  rw [shapeCast_1a_a_apply (numerArr m c) shapeCasts_S1x9_S9 cl, numer_apply]
  show ∑ i : Fin 8388608, numerTerm m c cl i = _
  exact Finset.sum_congr rfl fun i _ => numerTerm_eq m c cl i

/-- The kernel's denominators are the reference's. -/
theorem denom_bridge (c : Dev nD) :
    denomVec m c = Cert.ReferenceIdeal.Read.val_main_v42 (F := Ideal) (xOf m c) (tOf m c) := by
  funext j
  obtain ⟨cl, rfl⟩ : ∃ cl : Fin 9, j = ix1 cl := ⟨j 0, eq_ix1 j⟩
  unfold denomVec
  rw [shapeCast_1a_a_apply (denomArr m c) shapeCasts_S1x9_S9 cl, denom_apply]
  show (∑ i : Fin 8388608, pwTerm m c cl i) + ∑ i : Fin 8388608, ohwTerm m c cl i = _
  exact congrArg₂ (· + ·) (Finset.sum_congr rfl fun i _ => pwTerm_eq m c cl i)
    (Finset.sum_congr rfl fun i _ => ohwTerm_eq m c cl i)

end Cert.Proof.Bridge

/-! ## The claims -/

namespace Cert.Proof.Claims

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the shared tail of equal numerators and denominators. -/
theorem algebraic : Cert.algebraic_KernelIdeal_ReferenceIdeal := by
  intro m ρ m' ρ' _ hagree
  refine ⟨fun c => Cert.ReferenceIdeal.RefValue.tail (Cert.KernelIdeal.Result.numerVec m c) (Cert.KernelIdeal.Result.denomVec m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, Cert.ReferenceIdeal.RefValue.result_eq_tail, (hagree c).1, (hagree c).2]
  exact congrArg₂ Cert.ReferenceIdeal.RefValue.tail (Cert.Proof.Bridge.numer_bridge m c).symm (Cert.Proof.Bridge.denom_bridge m c).symm

end Cert.Proof.Claims

end
-- ==== Proof.lean ====
/-
  A weighted Dice loss over N = 8388608 rows of nine class logits, computed two ways, gives one extended real.

  From logits x : [N, 9] and integer labels t : [N] both programs form, per row i, the softmax p[i, ·] of the row
  (shifted by the row's maximum), the one-hot oh[i, ·] of the label, and a weight w[i] that a chain of comparisons and
  selections reads off the labels (a label and its successor decide between 1, 3, 2.5 and 1.5); then, per class c,
      numer[c] = ∑ᵢ oh[i, c] · p[i, c] · w[i],      denom[c] = ∑ᵢ p[i, c] · w[i] + ∑ᵢ oh[i, c] · w[i],
  and the result 1 − (∑_c (2·numer[c] + ε) / (denom[c] + ε)) / 9.
  One program takes the three sums over all rows at once. The other takes them 8192 rows at a time inside a grid of
  1024 points, adding each block's sums to two accumulators that the first point resets to zero, and groups the
  numerator's product as oh · (p · w) where the first has (p · oh) · w. Over the extended reals addition and
  multiplication are commutative and associative (infinities included), which is all the regrouping uses: no
  finiteness of the inputs enters the value. The weights' chain and the closing lines are the same text in both
  programs and are compared as wholes.

  The modules: Spec (the row softmax, the one-hot, a sum over the rows as a sum over the row blocks), Layout (columns
  and one-axis reductions read at an index), KernelPay (one grid point's arithmetic entry by entry), Pieces (what a
  point leaves in the accumulators), Blocks (what a point's windows hold, in terms of the arguments), Accum (the
  accumulators as running sums, by induction on the point), RefRead and Tail (the reference entry by entry, the shared
  closing lines), Result (the kernel's program's result), Bridge (the two results are one function; the claims).
-/
import proofs.«106723_j1030792151082_2_alg».proof.Defs
import proofs.«106723_j1030792151082_2_alg».proof.Proof.Gen.Kernel
import proofs.«106723_j1030792151082_2_alg».proof.Proof.Gen.Kernel.Skeleton
import proofs.«106723_j1030792151082_2_alg».proof.Proof.Gen.Kernel.Launch
import proofs.«106723_j1030792151082_2_alg».proof.Proof.Gen.Kernel.Points
import proofs.«106723_j1030792151082_2_alg».proof.Proof.Gen.Kernel.Frame
import proofs.«106723_j1030792151082_2_alg».proof.Proof.Gen.KernelIdeal
import proofs.«106723_j1030792151082_2_alg».proof.Proof.Gen.KernelIdeal.Skeleton
import proofs.«106723_j1030792151082_2_alg».proof.Proof.Gen.KernelIdeal.Launch
import proofs.«106723_j1030792151082_2_alg».proof.Proof.Gen.KernelIdeal.Points
import proofs.«106723_j1030792151082_2_alg».proof.Proof.Gen.KernelIdeal.Frame
import proofs.«106723_j1030792151082_2_alg».proof.Proof.Gen.ReferenceIdeal
import proofs.«106723_j1030792151082_2_alg».proof.Proof.Gen.Pre_finite_inputs
import proofs.«106723_j1030792151082_2_alg».proof.Proof.Gen.ReferenceIdeal.Run
import proofs.«106723_j1030792151082_2_alg».proof.Proof.Gen.ReferenceIdeal.Read
import proofs.«106723_j1030792151082_2_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
